-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn_part1 {F : FTy → Type} [FloatOps F] (main_arg6 : FVec F S32x11008 .f32) (main_arg8 : FVec F S86x4096 .f32) (main_arg9 : FVec F S86x4096 .f32) (main_v13 : IVec S_ 1) (main_v16 : IVec S32x11008 1) : IVec S_ 1 :=
  let main_c_5 : IVec S_ 1 := constantI S_ 1 1#1
  let main_v17 : IVec S_ 1 := (fun x v => Host.reduce IntOp.andi x v reducesTo_S32x11008_S_d0_1 h_S_) main_v16 main_c_5
  let main_v18 : IVec S_ 1 := andi main_v13 main_v17
  let main_v19 : FVec F S32x11008 .f32 := Host.absf main_arg6
  let main_cst_6 : FVec F S_ .f32 := constant S_ .f32 0x7F800000#32
  let main_v20 : FVec F S32x11008 .f32 := broadcastInDim S32x11008 ![] bcast_S_S32x11008 main_cst_6
  let main_v21 : IVec S32x11008 1 := cmpf .olt main_v19 main_v20
  let main_c_7 : IVec S_ 1 := constantI S_ 1 1#1
  let main_v22 : IVec S_ 1 := (fun x v => Host.reduce IntOp.andi x v reducesTo_S32x11008_S_d0_1 h_S_) main_v21 main_c_7
  let main_v23 : IVec S_ 1 := andi main_v18 main_v22
  let main_v24 : FVec F S86x4096 .f32 := Host.absf main_arg8
  let main_cst_8 : FVec F S_ .f32 := constant S_ .f32 0x7F800000#32
  let main_v25 : FVec F S86x4096 .f32 := broadcastInDim S86x4096 ![] bcast_S_S86x4096 main_cst_8
  let main_v26 : IVec S86x4096 1 := cmpf .olt main_v24 main_v25
  let main_c_9 : IVec S_ 1 := constantI S_ 1 1#1
  let main_v27 : IVec S_ 1 := (fun x v => Host.reduce IntOp.andi x v reducesTo_S86x4096_S_d0_1 h_S_) main_v26 main_c_9
  let main_v28 : IVec S_ 1 := andi main_v23 main_v27
  let main_v29 : FVec F S86x4096 .f32 := Host.absf main_arg9
  let main_cst_10 : FVec F S_ .f32 := constant S_ .f32 0x7F800000#32
  let main_v30 : FVec F S86x4096 .f32 := broadcastInDim S86x4096 ![] bcast_S_S86x4096 main_cst_10
  let main_v31 : IVec S86x4096 1 := cmpf .olt main_v29 main_v30
  let main_c_11 : IVec S_ 1 := constantI S_ 1 1#1
  let main_v32 : IVec S_ 1 := (fun x v => Host.reduce IntOp.andi x v reducesTo_S86x4096_S_d0_1 h_S_) main_v31 main_c_11
  let main_v33 : IVec S_ 1 := andi main_v28 main_v32
  main_v33

def fn {F : FTy → Type} [FloatOps F] (main_arg0 : FVec F S4x2048x4096 .f32) (main_arg1 : IVec S4096x11008 32) (main_arg2 : FVec F S32x11008 .f32) (main_arg3 : FVec F S32x11008 .f32) (main_arg4 : IVec S4096x11008 32) (main_arg5 : FVec F S32x11008 .f32) (main_arg6 : FVec F S32x11008 .f32) (main_arg7 : IVec S11008x4096 32) (main_arg8 : FVec F S86x4096 .f32) (main_arg9 : FVec F S86x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S32x11008 .f32 := Host.absf main_arg5
  let main_cst_4 : FVec F S_ .f32 := constant S_ .f32 0x7F800000#32
  let main_v15 : FVec F S32x11008 .f32 := broadcastInDim S32x11008 ![] bcast_S_S32x11008 main_cst_4
  let main_v16 : IVec S32x11008 1 := cmpf .olt main_v14 main_v15
  fn_part1 (F := F) main_arg6 main_arg8 main_arg9 main_v13 main_v16
-- ==== Kernel.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S8192x4096 : Shape := ⟨2, ![8192, 4096]⟩
abbrev S512x4096 : Shape := ⟨2, ![512, 4096]⟩
abbrev S4096x128 : Shape := ⟨2, ![4096, 128]⟩
abbrev S32x128 : Shape := ⟨2, ![32, 128]⟩
abbrev S128x4096 : Shape := ⟨2, ![128, 4096]⟩
abbrev S32x1x128 : Shape := ⟨3, ![32, 1, 128]⟩
abbrev S32x128x128 : Shape := ⟨3, ![32, 128, 128]⟩
abbrev S1x4096 : Shape := ⟨2, ![1, 4096]⟩
abbrev S1x1x4096 : Shape := ⟨3, ![1, 1, 4096]⟩
abbrev S1x128x4096 : Shape := ⟨3, ![1, 128, 4096]⟩
abbrev S512x128 : Shape := ⟨2, ![512, 128]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .i32⟩
  | .hbm, ⟨2, _⟩ => ⟨S32x11008, .f32⟩
  | .hbm, ⟨3, _⟩ => ⟨S32x11008, .f32⟩
  | .hbm, ⟨4, _⟩ => ⟨S4096x11008, .i32⟩
  | .hbm, ⟨5, _⟩ => ⟨S32x11008, .f32⟩
  | .hbm, ⟨6, _⟩ => ⟨S32x11008, .f32⟩
  | .hbm, ⟨7, _⟩ => ⟨S11008x4096, .i32⟩
  | .hbm, ⟨8, _⟩ => ⟨S86x4096, .f32⟩
  | .hbm, ⟨9, _⟩ => ⟨S86x4096, .f32⟩
  | .hbm, ⟨10, _⟩ => ⟨S8192x4096, .f32⟩
  | .hbm, ⟨11, _⟩ => ⟨S8192x4096, .f32⟩
  | .hbm, ⟨12, _⟩ => ⟨S4x2048x4096, .f32⟩
  | .local _ .vmem, ⟨0, _⟩ => ⟨S512x4096, .f32⟩
  | .local _ .vmem, ⟨1, _⟩ => ⟨S4096x128, .i32⟩
  | .local _ .vmem, ⟨2, _⟩ => ⟨S4096x128, .i32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S4096x128, .i32⟩
  | .local _ .vmem, ⟨8, _⟩ => ⟨S4096x128, .i32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S128x4096, .i32⟩
  | .local _ .vmem, ⟨14, _⟩ => ⟨S128x4096, .i32⟩
  | .local _ .vmem, ⟨15, _⟩ => ⟨S86x4096, .f32⟩
  | .local _ .vmem, ⟨16, _⟩ => ⟨S86x4096, .f32⟩
  | .local _ .vmem, ⟨17, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![16, 86], ![false, false]⟩

def k0_off1 (i : grid0.Coords) : Fin 2 → Nat :=
  let arg1 : BitVec 32 := BitVec.ofNat 32 (i 1).val
  let c1_i32 : BitVec 32 := 1#32
  let v37 : BitVec 32 := Scalar.muli arg1 c1_i32
  let v38 : Index := Scalar.indexCast v37
  let c0_13 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x4096 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S86x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S86x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  inb_S32x128_S32x128_0_0 : ∀ a, (![0, 0] : Fin 2 → Nat) a + S32x128.size a ≤ S32x128.size a
  h_S32x128 : 0 < S32x128.numel
  shapeCasts_S32x128_S32x1x128 : S32x128.ShapeCasts S32x1x128
  shapeCasts_S32x1x128_S32x1x128 : S32x1x128.ShapeCasts S32x1x128
  broadcasts_S32x1x128_S32x128x128 : S32x1x128.Broadcasts S32x128x128
  shapeCasts_S32x128x128_S4096x128 : S32x128x128.ShapeCasts S4096x128
  bitsLt_bf16_f32 : FTy.bits .bf16 < FTy.bits .f32
  h_S1x4096 : 0 < S1x4096.numel
  inb_S128x4096_S128x4096_0_0 : ∀ a, (![0, 0] : Fin 2 → Nat) a + S128x4096.size a ≤ S128x4096.size a
  h_S128x4096 : 0 < S128x4096.numel
  shapeCasts_S1x4096_S1x1x4096 : S1x4096.ShapeCasts S1x1x4096
  shapeCasts_S1x1x4096_S1x1x4096 : S1x1x4096.ShapeCasts S1x1x4096
  broadcasts_S1x1x4096_S1x128x4096 : S1x1x4096.Broadcasts S1x128x4096
  shapeCasts_S1x128x4096_S128x4096 : S1x128x4096.ShapeCasts S128x4096
  shapeCasts_S512x4096_S512x4096 : S512x4096.ShapeCasts S512x4096
  shapeCasts_S8192x4096_S4x2048x4096 : S8192x4096.ShapeCasts S4x2048x4096
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  k0_off1_inb : ∀ i : grid0.Coords, ∀ a, (k0_off1 i) a + S1x4096.size a ≤ S86x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x11008.size a
  hwx0_1 : ∀ i : grid0.Coords, EltTy.bits .i32 = 32 ∨ (Rect.block (s := S4096x11008) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x11008.size a
  hwx0_2 : ∀ i : grid0.Coords, EltTy.bits .f32 = 32 ∨ (Rect.block (s := S32x11008) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x11008.size a
  hwx0_3 : ∀ i : grid0.Coords, EltTy.bits .f32 = 32 ∨ (Rect.block (s := S32x11008) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x11008.size a
  hwx0_4 : ∀ i : grid0.Coords, EltTy.bits .i32 = 32 ∨ (Rect.block (s := S4096x11008) S4096x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x11008.size a
  hwx0_5 : ∀ i : grid0.Coords, EltTy.bits .f32 = 32 ∨ (Rect.block (s := S32x11008) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x11008.size a
  hwx0_6 : ∀ i : grid0.Coords, EltTy.bits .f32 = 32 ∨ (Rect.block (s := S32x11008) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S11008x4096.size a
  hwx0_7 : ∀ i : grid0.Coords, EltTy.bits .i32 = 32 ∨ (Rect.block (s := S11008x4096) S128x4096.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S86x4096.size a ≤ S86x4096.size a
  hwx0_8 : ∀ i : grid0.Coords, EltTy.bits .f32 = 32 ∨ (Rect.block (s := S86x4096) S86x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S86x4096.size a ≤ S86x4096.size a
  hwx0_9 : ∀ i : grid0.Coords, EltTy.bits .f32 = 32 ∨ (Rect.block (s := S86x4096) S86x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x4096.size a ≤ S8192x4096.size a
  hwx0_10 : ∀ i : grid0.Coords, EltTy.bits .f32 = 32 ∨ (Rect.block (s := S8192x4096) S512x4096.size (cc0_transform_10 i) (hinb0_10 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S86x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S86x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S512x4096.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S32x128x11008 : Shape := ⟨3, ![32, 128, 11008]⟩
abbrev S_ : Shape := ⟨0, ![]⟩
abbrev S86x128x4096 : Shape := ⟨3, ![86, 128, 4096]⟩
abbrev S4x2048x11008 : Shape := ⟨3, ![4, 2048, 11008]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .i32⟩
  | .hbm, ⟨2, _⟩ => ⟨S32x11008, .f32⟩
  | .hbm, ⟨3, _⟩ => ⟨S32x11008, .f32⟩
  | .hbm, ⟨4, _⟩ => ⟨S4096x11008, .i32⟩
  | .hbm, ⟨5, _⟩ => ⟨S32x11008, .f32⟩
  | .hbm, ⟨6, _⟩ => ⟨S32x11008, .f32⟩
  | .hbm, ⟨7, _⟩ => ⟨S11008x4096, .i32⟩
  | .hbm, ⟨8, _⟩ => ⟨S86x4096, .f32⟩
  | .hbm, ⟨9, _⟩ => ⟨S86x4096, .f32⟩
  | .hbm, ⟨10, _⟩ => ⟨S32x128x11008, .f32⟩
  | .hbm, ⟨11, _⟩ => ⟨S4096x11008, .f32⟩
  | .hbm, ⟨12, _⟩ => ⟨S32x128x11008, .f32⟩
  | .hbm, ⟨13, _⟩ => ⟨S4096x11008, .f32⟩
  | .hbm, ⟨14, _⟩ => ⟨S4096x11008, .f32⟩
  | .hbm, ⟨15, _⟩ => ⟨S_, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S32x128x11008, .f32⟩
  | .hbm, ⟨21, _⟩ => ⟨S4096x11008, .f32⟩
  | .hbm, ⟨22, _⟩ => ⟨S32x128x11008, .f32⟩
  | .hbm, ⟨23, _⟩ => ⟨S4096x11008, .f32⟩
  | .hbm, ⟨24, _⟩ => ⟨S4096x11008, .f32⟩
  | .hbm, ⟨25, _⟩ => ⟨S_, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S4096x11008, .f32⟩
  | .hbm, ⟨30, _⟩ => ⟨S86x128x4096, .f32⟩
  | .hbm, ⟨31, _⟩ => ⟨S11008x4096, .f32⟩
  | .hbm, ⟨32, _⟩ => ⟨S86x128x4096, .f32⟩
  | .hbm, ⟨33, _⟩ => ⟨S11008x4096, .f32⟩
  | .hbm, ⟨34, _⟩ => ⟨S11008x4096, .f32⟩
  | .hbm, ⟨35, _⟩ => ⟨S_, .f32⟩
  | .hbm, ⟨36, _⟩ => ⟨S11008x4096, .f32⟩
  | .hbm, ⟨37, _⟩ => ⟨S11008x4096, .f32⟩
  | .hbm, ⟨38, _⟩ => ⟨S11008x4096, .f32⟩
  | .hbm, ⟨39, _⟩ => ⟨S11008x4096, .f32⟩
  | .hbm, ⟨40, _⟩ => ⟨S4x2048x11008, .f32⟩
  | .hbm, ⟨41, _⟩ => ⟨S4x2048x11008, .f32⟩
  | .hbm, ⟨42, _⟩ => ⟨S4x2048x11008, .f32⟩
  | .hbm, ⟨43, _⟩ => ⟨S4x2048x11008, .f32⟩
  | .hbm, ⟨44, _⟩ => ⟨S_, .f32⟩
  | .hbm, ⟨45, _⟩ => ⟨S4x2048x11008, .f32⟩
  | .hbm, ⟨46, _⟩ => ⟨S4x2048x11008, .f32⟩
  | .hbm, ⟨47, _⟩ => ⟨S_, .f32⟩
  | .hbm, ⟨48, _⟩ => ⟨S4x2048x11008, .f32⟩
  | .hbm, ⟨49, _⟩ => ⟨S4x2048x11008, .f32⟩
  | .hbm, ⟨50, _⟩ => ⟨S4x2048x11008, .f32⟩
  | .hbm, ⟨51, _⟩ => ⟨S4x2048x11008, .f32⟩
  | .hbm, ⟨52, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S_S4096x11008 : S_.BroadcastsInDim S4096x11008 (![] : Fin 0 → Fin S4096x11008.rank)
  bcast_S86x4096_S86x128x4096_0_2 : S86x4096.BroadcastsInDim S86x128x4096 (![0, 2] : Fin 2 → Fin S86x128x4096.rank)
  shapeCasts_S86x128x4096_S11008x4096 : S86x128x4096.ShapeCasts S11008x4096
  bcast_S_S11008x4096 : S_.BroadcastsInDim S11008x4096 (![] : Fin 0 → Fin S11008x4096.rank)
  bcast_S_S4x2048x11008 : S_.BroadcastsInDim S4x2048x11008 (![] : Fin 0 → Fin S4x2048x11008.rank)
  dot_S4x2048x4096_S4096x11008_S4x2048x11008_2_0_01_1_n_n_wf : DotDims.WF S4x2048x4096 S4096x11008 S4x2048x11008 [2] [0] [0, 1] [1] [] []
  dot_S4x2048x11008_S11008x4096_S4x2048x4096_2_0_01_1_n_n_wf : DotDims.WF S4x2048x11008 S11008x4096 S4x2048x4096 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf
def dot_S4x2048x11008_S11008x4096_S4x2048x4096_2_0_01_1_n_n : DotDims S4x2048x11008 S11008x4096 S4x2048x4096 where
  lhsContracting := [2]
  rhsContracting := [0]
  lhsNonContracting := [0, 1]
  rhsNonContracting := [1]
  lhsBatch := []
  rhsBatch := []
  wf := dot_S4x2048x11008_S11008x4096_S4x2048x4096_2_0_01_1_n_n_wf

class Facts : Prop extends Facts₀ where

variable [Facts]
-- ==== Proof.Pieces.lean ====
/-
  What the body leaves in the output block, case by case, as the stored payload of its loads.

  At the first hidden tile of a block of token rows the body first stores the zero block, reads it back and stores the
  zero block plus the tile's contribution; at every later tile it reads what the block held and stores that plus the
  tile's contribution.  The last store covers the whole block, so the block ends holding its payload: the stored
  function of the loaded input blocks, of the one loaded row of the output weight's scales and of its zero points, and
  of the zero block (first tile) or of the block's previous contents (later tiles).
-/
import proofs.«166478_j48137993453617_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The one row of an 86-row array the body loads at a grid point: the row numbered by the point's hidden-tile
    coordinate. -/
def rowAt (i : grid0.Coords) (x : Vec F S86x4096 .f32) : Vec F S1x4096 .f32 :=
  View.ld x (Rect.unit (s := S86x4096) (k0_off1 i) S1x4096.size (k0_off1_inb i))

/-- A later tile: the block ends at the payload over its previous contents. -/
theorem out_B (c : Dev nD) (i : grid0.Coords) (arg2 : Memref sig .tc .vmem S512x4096 .f32) (harg2 : arg2.IsWhole) (arg3 : Memref sig .tc .vmem S4096x128 .i32) (harg3 : arg3.IsWhole) (arg4 : Memref sig .tc .vmem S32x128 .f32) (harg4 : arg4.IsWhole) (arg5 : Memref sig .tc .vmem S32x128 .f32) (harg5 : arg5.IsWhole) (arg6 : Memref sig .tc .vmem S4096x128 .i32) (harg6 : arg6.IsWhole) (arg7 : Memref sig .tc .vmem S32x128 .f32) (harg7 : arg7.IsWhole) (arg8 : Memref sig .tc .vmem S32x128 .f32) (harg8 : arg8.IsWhole) (arg9 : Memref sig .tc .vmem S128x4096 .i32) (harg9 : arg9.IsWhole) (arg10 : Memref sig .tc .vmem S86x4096 .f32) (harg10 : arg10.IsWhole) (arg11 : Memref sig .tc .vmem S86x4096 .f32) (harg11 : arg11.IsWhole) (arg12 : Memref sig .tc .vmem S512x4096 .f32) (harg12 : arg12.IsWhole) (hc0 : ¬cond0_0 i) (x0 : Vec F S512x4096 .f32) (x1 : Vec F S4096x128 .i32) (x2 : Vec F S32x128 .f32) (x3 : Vec F S32x128 .f32) (x4 : Vec F S4096x128 .i32) (x5 : Vec F S32x128 .f32) (x6 : Vec F S32x128 .f32) (x7 : Vec F S128x4096 .i32) (x8 : Vec F S86x4096 .f32) (x9 : Vec F S86x4096 .f32) (xo10 : Vec F S512x4096 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10
      = k0_pay1 (k0_pay3 x1 x2 x3) (k0_pay4 x4 x5 x6) (rowAt i x8) (rowAt i x9) x7 x0 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S512x4096) hz, View.ld_unit_zero (S := S4096x128) hz, View.ld_unit_zero (S := S32x128) hz,
    View.ld_unit_zero (S := S128x4096) hz]
  rfl

/-- The first tile: the block ends at the payload over the zero block. -/
theorem out_A (c : Dev nD) (i : grid0.Coords) (arg2 : Memref sig .tc .vmem S512x4096 .f32) (harg2 : arg2.IsWhole) (arg3 : Memref sig .tc .vmem S4096x128 .i32) (harg3 : arg3.IsWhole) (arg4 : Memref sig .tc .vmem S32x128 .f32) (harg4 : arg4.IsWhole) (arg5 : Memref sig .tc .vmem S32x128 .f32) (harg5 : arg5.IsWhole) (arg6 : Memref sig .tc .vmem S4096x128 .i32) (harg6 : arg6.IsWhole) (arg7 : Memref sig .tc .vmem S32x128 .f32) (harg7 : arg7.IsWhole) (arg8 : Memref sig .tc .vmem S32x128 .f32) (harg8 : arg8.IsWhole) (arg9 : Memref sig .tc .vmem S128x4096 .i32) (harg9 : arg9.IsWhole) (arg10 : Memref sig .tc .vmem S86x4096 .f32) (harg10 : arg10.IsWhole) (arg11 : Memref sig .tc .vmem S86x4096 .f32) (harg11 : arg11.IsWhole) (arg12 : Memref sig .tc .vmem S512x4096 .f32) (harg12 : arg12.IsWhole) (hc0 : cond0_0 i) (x0 : Vec F S512x4096 .f32) (x1 : Vec F S4096x128 .i32) (x2 : Vec F S32x128 .f32) (x3 : Vec F S32x128 .f32) (x4 : Vec F S4096x128 .i32) (x5 : Vec F S32x128 .f32) (x6 : Vec F S32x128 .f32) (x7 : Vec F S128x4096 .i32) (x8 : Vec F S86x4096 .f32) (x9 : Vec F S86x4096 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9
      = k0_pay1 (k0_pay3 x1 x2 x3) (k0_pay4 x4 x5 x6) (rowAt i x8) (rowAt i x9) x7 x0 k0_pay2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S512x4096) hz, View.ld_unit_zero (S := S4096x128) hz, View.ld_unit_zero (S := S32x128) hz,
    View.ld_unit_zero (S := S128x4096) hz]
  rfl

end Cert.KernelIdeal.Pieces

end
-- ==== Proof.Spec.lean ====
/-
  The function both programs compute: a gated feed-forward block with group-quantised weights, on the extended reals.

  A weight entry is stored as a small integer `q`; its value is `(q - 8) · s + z`, where the scale `s` and the zero point
  `z` are shared by the 128 consecutive entries of a column that form a group.  For a token row `x` (4096 features),
  the block forms two projections to 11008 hidden features, `g = x · Wg` and `u = x · Wu`, the hidden activation
  `h = g · σ(g) · u` with `σ(g) = 1 / (1 + e^(-g))`, and the result `h · Wd` (4096 features).  The 4 × 2048 tokens are
  the rows of an 8192 × 4096 matrix, token `(b, s)` being row `2048 · b + s`.
-/
import Idealize.ShloMosaic.Lib.ValueIdx
import Idealize.ShloMosaic.PureOps.Ideal.Laws

noncomputable section

open scoped BigOperators

namespace Cert.Spec

open Idealize.ShloMosaic Idealize.ShloMosaic.ValueIdx

/-- A matrix (or rank-3 array) of the given extents, as a function of its index. -/
abbrev Mat (a b : ℕ) (α : Type) : Type := (⟨2, ![a, b]⟩ : Shape).Idx → α
abbrev Arr3 (a b c : ℕ) (α : Type) : Type := (⟨3, ![a, b, c]⟩ : Shape).Idx → α

/-- One weight: the stored integer read signed, less eight, times the group's scale, plus the group's zero point. -/
def wt (q : BitVec 32) (s z : EReal) : EReal :=
  (FloatOps.sitofp (F := Ideal) .f32 q - Ideal.ofBits .f32 0x41000000#32) * s + z

/-- The group of a row of a 4096-row weight, and of a row of an 11008-row weight. -/
abbrev grp32 (d : Fin 4096) : Fin 32 := ⟨d.val / 128, by have := d.isLt; omega⟩
abbrev grp86 (j : Fin 11008) : Fin 86 := ⟨j.val / 128, by have := j.isLt; omega⟩

/-- Entry `(d, j)` of a projection weight of 4096 rows in 32 groups. -/
def wIn (q : Mat 4096 11008 (BitVec 32)) (s z : Mat 32 11008 EReal) (d : Fin 4096) (j : Fin 11008) : EReal :=
  wt (q (ix2 d j)) (s (ix2 (grp32 d) j)) (z (ix2 (grp32 d) j))

/-- Entry `(j, c)` of the output weight of 11008 rows in 86 groups. -/
def wOut (q : Mat 11008 4096 (BitVec 32)) (s z : Mat 86 4096 EReal) (j : Fin 11008) (c : Fin 4096) : EReal :=
  wt (q (ix2 j c)) (s (ix2 (grp86 j) c)) (z (ix2 (grp86 j) c))

/-- Hidden feature `j` of token row `r` under one projection: the sum over the 4096 input features. -/
def proj (X : Mat 8192 4096 EReal) (q : Mat 4096 11008 (BitVec 32)) (s z : Mat 32 11008 EReal)
    (r : Fin 8192) (j : Fin 11008) : EReal :=
  ∑ d : Fin 4096, X (ix2 r d) * wIn q s z d j

/-- The gate: `g · σ(g) · u`. -/
def act (g u : EReal) : EReal := g * Ideal.logistic g * u

/-- The hidden activation of token row `r` at hidden feature `j`. -/
def hidden (X : Mat 8192 4096 EReal) (q1 : Mat 4096 11008 (BitVec 32)) (s2 z3 : Mat 32 11008 EReal)
    (q4 : Mat 4096 11008 (BitVec 32)) (s5 z6 : Mat 32 11008 EReal) (r : Fin 8192) (j : Fin 11008) : EReal :=
  act (proj X q1 s2 z3 r j) (proj X q4 s5 z6 r j)

/-- One term of the output sum: hidden feature `j` of row `r` times the output weight at `(j, c)`. -/
def term (X : Mat 8192 4096 EReal) (q1 : Mat 4096 11008 (BitVec 32)) (s2 z3 : Mat 32 11008 EReal)
    (q4 : Mat 4096 11008 (BitVec 32)) (s5 z6 : Mat 32 11008 EReal)
    (q7 : Mat 11008 4096 (BitVec 32)) (s8 z9 : Mat 86 4096 EReal) (r : Fin 8192) (c : Fin 4096) (j : Fin 11008) : EReal :=
  hidden X q1 s2 z3 q4 s5 z6 r j * wOut q7 s8 z9 j c

/-- The block on the token matrix: entry `(r, c)` is the sum over the 11008 hidden features. -/
def mlp (X : Mat 8192 4096 EReal) (q1 : Mat 4096 11008 (BitVec 32)) (s2 z3 : Mat 32 11008 EReal)
    (q4 : Mat 4096 11008 (BitVec 32)) (s5 z6 : Mat 32 11008 EReal)
    (q7 : Mat 11008 4096 (BitVec 32)) (s8 z9 : Mat 86 4096 EReal) (r : Fin 8192) (c : Fin 4096) : EReal :=
  ∑ j : Fin 11008, term X q1 s2 z3 q4 s5 z6 q7 s8 z9 r c j

/-- Token `(b, s)` is row `2048 · b + s`. -/
abbrev rowOf (b : Fin 4) (s : Fin 2048) : Fin 8192 := ⟨b.val * 2048 + s.val, by have := b.isLt; have := s.isLt; omega⟩

/-- The tokens as the rows of a matrix. -/
def rows (x : Arr3 4 2048 4096 EReal) : Mat 8192 4096 EReal := fun I =>
  x (ix3 (⟨(I 0).val / 2048, by have := idx2_lt0 I; omega⟩ : Fin 4) (⟨(I 0).val % 2048, Nat.mod_lt _ (by norm_num)⟩ : Fin 2048) (I 1))

/-- The whole function: the block's result for every token, as a rank-3 array. -/
def G (x0 : Arr3 4 2048 4096 EReal) (q1 : Mat 4096 11008 (BitVec 32)) (s2 z3 : Mat 32 11008 EReal)
    (q4 : Mat 4096 11008 (BitVec 32)) (s5 z6 : Mat 32 11008 EReal)
    (q7 : Mat 11008 4096 (BitVec 32)) (s8 z9 : Mat 86 4096 EReal) : Arr3 4 2048 4096 EReal := fun i =>
  mlp (rows x0) q1 s2 z3 q4 s5 z6 q7 s8 z9 (rowOf (i 0) (i 1)) (i 2)

/-- Row `2048 · b + s` of the token matrix is token `(b, s)`. -/
theorem rows_rowOf (x : Arr3 4 2048 4096 EReal) (b : Fin 4) (s : Fin 2048) (d : Fin 4096) :
    rows x (ix2 (rowOf b s) d) = x (ix3 b s d) := by
  unfold rows
  have hb := b.isLt; have hs := s.isLt
  congr 1
  funext a
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

end Cert.Spec

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.LibGroupRepeat.lean ====
/-
  Rows repeated group-wise, read at an index.

  A `[g, n]` matrix whose every row is to be used for `r` consecutive rows of a `[g · r, n]` matrix is written, on
  vectors, as a cast to `[g, 1, n]`, a broadcast to `[g, r, n]` and a cast to `[g · r, n]`.  The last cast keeps
  row-major positions, so row `d` of the result is row `d / r` of the operand: position `(d, k)` of the result is
  position `(d / r, d % r, k)` of the rank-3 array, which the broadcast reads at `(d / r, 0, k)`.
-/
import proofs.«166478_j48137993453617_1_alg».proof.Proof.LibUnitAxes

namespace Idealize.ShloMosaic.GroupRepeat

open Idealize.ShloMosaic Idealize.ShloMosaic.ValueIdx

variable {α : Type}

/-- The cast of a `[g, r, n]` array to `[m, n]` with `m = g · r` reads, at `(d, k)`, the operand at
    `(d / r, d % r, k)`. -/
theorem shapeCast_grn_mn_apply {g r n m : ℕ} (hm : m = g * r) (hr : 0 < r) (v : (⟨3, ![g, r, n]⟩ : Shape).Idx → α)
    (h : (⟨3, ![g, r, n]⟩ : Shape).ShapeCasts ⟨2, ![m, n]⟩) (d : Fin m) (k : Fin n) (gd : Fin g)
    (hgd : gd.val = d.val / r) :
    shapeCast ⟨2, ![m, n]⟩ v h (ix2 d k) = v (ix3 gd (⟨d.val % r, Nat.mod_lt _ hr⟩ : Fin r) k) :=
  shapeCast_apply v h _ _ (by
    rw [Shape.rowMajor_val_three, Shape.rowMajor_val_two]
    show (gd.val * r + d.val % r) * n + k.val = d.val * n + k.val
    rw [hgd, Nat.div_add_mod'])

/-- A `[g, n]` matrix with every row repeated `r` times — cast to `[g, 1, n]`, cast again to the same shape (as the
    program writes it), broadcast to `[g, r, n]`, cast to `[m, n]` with `m = g · r` — reads, at `(d, k)`, the matrix
    at `(d / r, k)`. -/
theorem repeat_rows_apply {g r n m : ℕ} (hm : m = g * r) (hr : 0 < r) (y : (⟨2, ![g, n]⟩ : Shape).Idx → α)
    (h1 : (⟨2, ![g, n]⟩ : Shape).ShapeCasts ⟨3, ![g, 1, n]⟩)
    (h2 : (⟨3, ![g, 1, n]⟩ : Shape).ShapeCasts ⟨3, ![g, 1, n]⟩)
    (h3 : (⟨3, ![g, 1, n]⟩ : Shape).Broadcasts ⟨3, ![g, r, n]⟩)
    (h4 : (⟨3, ![g, r, n]⟩ : Shape).ShapeCasts ⟨2, ![m, n]⟩) (d : Fin m) (k : Fin n) (gd : Fin g)
    (hgd : gd.val = d.val / r) :
    shapeCast ⟨2, ![m, n]⟩
        (broadcastTo ⟨3, ![g, r, n]⟩ (shapeCast ⟨3, ![g, 1, n]⟩ (shapeCast ⟨3, ![g, 1, n]⟩ y h1) h2) h3) h4 (ix2 d k)
      = y (ix2 gd k) := by
  rw [shapeCast_self (shapeCast ⟨3, ![g, 1, n]⟩ y h1) h2]
  exact (shapeCast_grn_mn_apply hm hr _ h4 d k gd hgd).trans (UnitAxes.along_middle y h1 h3 gd _ k)

end Idealize.ShloMosaic.GroupRepeat
-- ==== Proof.Payload.lean ====
/-
  What one grid point computes, entry by entry, on the extended reals.

  At a grid point the body holds a block of 512 token rows (all 4096 features), a tile of 128 hidden features of each
  projection weight (all 4096 rows, with their 32 groups' scales and zero points), and the matching 128 rows of the
  output weight (all 4096 columns; these 128 rows are one group, so one row of scales and one of zero points serves
  them).  It dequantises the three tiles, forms the two projections of the token rows onto the 128 hidden features,
  gates them, multiplies by the dequantised output tile and adds the product to what the output block held.  Here each
  of these steps is read at an index: a matrix product into a zero accumulator is the plain sum over the contracted
  axis, a dequantised entry is `(q - 8) · s + z` with the scale and zero point of the entry's group.
-/
import proofs.«166478_j48137993453617_1_alg».proof.Proof.Gen.KernelIdeal.Skeleton
import proofs.«166478_j48137993453617_1_alg».proof.Proof.Spec
import proofs.«166478_j48137993453617_1_alg».proof.Proof.LibPlainDot
import proofs.«166478_j48137993453617_1_alg».proof.Proof.LibGroupRepeat
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-- The dimension numbers of the two kinds of product in the body: token rows by a projection tile, and gated
    activations by the output tile. -/
abbrev dIn : DotDims S512x4096 S4096x128 S512x128 := dot_S512x4096_S4096x128_S512x128_1_0_0_1_n_n
abbrev dOut : DotDims S512x128 S128x4096 S512x4096 := dot_S512x128_S128x4096_S512x4096_1_0_0_1_n_n

/-! ## The products are plain: rows of the left operand against columns of the right -/

theorem dIn_l0 (j : S512x128.Idx) (q : dIn.contr.Idx) : (dIn.lhsIdx j q 0).val = (j 0).val := by
  unfold DotDims.lhsIdx
  rw [dif_neg (show ¬(0 : Fin S512x4096.rank) ∈ dIn.lhsBatch by decide),
    dif_pos (show (0 : Fin S512x4096.rank) ∈ dIn.lhsNonContracting by decide)]
  rfl
theorem dIn_l1 (j : S512x128.Idx) (q : dIn.contr.Idx) : (dIn.lhsIdx j q 1).val = (q ⟨0, by decide⟩).val :=
  dIn.lhsIdx_val_of_single rfl j q
theorem dIn_r0 (j : S512x128.Idx) (q : dIn.contr.Idx) : (dIn.rhsIdx j q 0).val = (q ⟨0, by decide⟩).val :=
  dIn.rhsIdx_val_of_single rfl j q
theorem dIn_r1 (j : S512x128.Idx) (q : dIn.contr.Idx) : (dIn.rhsIdx j q 1).val = (j 1).val := by
  unfold DotDims.rhsIdx
  rw [dif_neg (show ¬(1 : Fin S4096x128.rank) ∈ dIn.rhsBatch by decide),
    dif_pos (show (1 : Fin S4096x128.rank) ∈ dIn.rhsNonContracting by decide)]
  rfl

theorem dOut_l0 (j : S512x4096.Idx) (q : dOut.contr.Idx) : (dOut.lhsIdx j q 0).val = (j 0).val := by
  unfold DotDims.lhsIdx
  rw [dif_neg (show ¬(0 : Fin S512x128.rank) ∈ dOut.lhsBatch by decide),
    dif_pos (show (0 : Fin S512x128.rank) ∈ dOut.lhsNonContracting by decide)]
  rfl
theorem dOut_l1 (j : S512x4096.Idx) (q : dOut.contr.Idx) : (dOut.lhsIdx j q 1).val = (q ⟨0, by decide⟩).val :=
  dOut.lhsIdx_val_of_single rfl j q
theorem dOut_r0 (j : S512x4096.Idx) (q : dOut.contr.Idx) : (dOut.rhsIdx j q 0).val = (q ⟨0, by decide⟩).val :=
  dOut.rhsIdx_val_of_single rfl j q
theorem dOut_r1 (j : S512x4096.Idx) (q : dOut.contr.Idx) : (dOut.rhsIdx j q 1).val = (j 1).val := by
  unfold DotDims.rhsIdx
  rw [dif_neg (show ¬(1 : Fin S128x4096.rank) ∈ dOut.rhsBatch by decide),
    dif_pos (show (1 : Fin S128x4096.rank) ∈ dOut.rhsNonContracting by decide)]
  rfl

/-- Token rows by a projection tile, into the zero accumulator: entry `(p, k)` is the sum over the 4096 features. -/
theorem mmIn_apply (l : FVec Ideal S512x4096 .bf16) (r : FVec Ideal S4096x128 .bf16) (p : Fin 512) (k : Fin 128) :
    matmul dIn none l r (constant S512x128 .f32 0x00000000#32) (ix2 p k) = ∑ d : Fin 4096, l (ix2 p d) * r (ix2 d k) :=
  Cert.Lib.PlainDot.matmul_zero_apply dIn rfl rfl dIn_l0 dIn_l1 dIn_r0 dIn_r1 none l r (ix2 p k)

/-- Gated activations by the output tile, into the zero accumulator: entry `(p, c)` is the sum over the tile's 128
    hidden features. -/
theorem mmOut_apply (l : FVec Ideal S512x128 .bf16) (r : FVec Ideal S128x4096 .bf16) (p : Fin 512) (c : Fin 4096) :
    matmul dOut none l r (constant S512x4096 .f32 0x00000000#32) (ix2 p c) = ∑ k : Fin 128, l (ix2 p k) * r (ix2 k c) :=
  Cert.Lib.PlainDot.matmul_zero_apply dOut rfl rfl dOut_l0 dOut_l1 dOut_r0 dOut_r1 none l r (ix2 p c)

/-! ## The dequantised tiles -/

/-- A projection tile: entry `(d, k)` is the weight of the stored integer with the scale and zero point of row `d`'s
    group. -/
theorem pay3_apply (v3 : Vec Ideal S4096x128 .i32) (v4 v5 : Vec Ideal S32x128 .f32) (d : Fin 4096) (k : Fin 128) :
    k0_pay3 (F := Ideal) v3 v4 v5 (ix2 d k) = wt (v3 (ix2 d k)) (v4 (ix2 (grp32 d) k)) (v5 (ix2 (grp32 d) k)) := by
  unfold k0_pay3
  exact congrArg₂ (fun a b : EReal => (FloatOps.sitofp (F := Ideal) .f32 (v3 (ix2 d k)) - Ideal.ofBits .f32 0x41000000#32) * a + b)
    (GroupRepeat.repeat_rows_apply (g := 32) (r := 128) (n := 128) (m := 4096) rfl (by norm_num) v4 _ _ _ _ d k (grp32 d) rfl)
    (GroupRepeat.repeat_rows_apply (g := 32) (r := 128) (n := 128) (m := 4096) rfl (by norm_num) v5 _ _ _ _ d k (grp32 d) rfl)

/-- The other projection's tile is the same function of its own loads. -/
theorem pay4_apply (v20 : Vec Ideal S4096x128 .i32) (v21 v22 : Vec Ideal S32x128 .f32) (d : Fin 4096) (k : Fin 128) :
    k0_pay4 (F := Ideal) v20 v21 v22 (ix2 d k) = wt (v20 (ix2 d k)) (v21 (ix2 (grp32 d) k)) (v22 (ix2 (grp32 d) k)) := by
  unfold k0_pay4
  exact congrArg₂ (fun a b : EReal => (FloatOps.sitofp (F := Ideal) .f32 (v20 (ix2 d k)) - Ideal.ofBits .f32 0x41000000#32) * a + b)
    (GroupRepeat.repeat_rows_apply (g := 32) (r := 128) (n := 128) (m := 4096) rfl (by norm_num) v21 _ _ _ _ d k (grp32 d) rfl)
    (GroupRepeat.repeat_rows_apply (g := 32) (r := 128) (n := 128) (m := 4096) rfl (by norm_num) v22 _ _ _ _ d k (grp32 d) rfl)

/-! ## The stored payload -/

/-- A projection of the block's token rows onto a tile's hidden feature `k`: the rows are used as loaded (the cast of
    the block to its own shape and the change of format change nothing). -/
theorem projTile_apply (v57 : Vec Ideal S512x4096 .f32) (w : FVec Ideal S4096x128 .bf16)
    (h : S512x4096.ShapeCasts S512x4096) (h' : FTy.bits .bf16 < FTy.bits .f32) (p : Fin 512) (k : Fin 128) :
    matmul dIn none (truncf .bf16 (shapeCast S512x4096 v57 h) h') w (constant S512x128 .f32 0x00000000#32) (ix2 p k)
      = ∑ d : Fin 4096, v57 (ix2 p d) * w (ix2 d k) := by
  rw [shapeCast_self]
  exact mmIn_apply _ w p k

/-- The output tile: its 128 rows are one group, so entry `(k, c)` takes the one loaded row of scales and of zero
    points at column `c`. -/
theorem outTile_apply (v39 v41 : Vec Ideal S1x4096 .f32) (v42 : Vec Ideal S128x4096 .i32)
    (h1 : S1x4096.ShapeCasts S1x1x4096) (h2 : S1x1x4096.ShapeCasts S1x1x4096) (h3 : S1x1x4096.Broadcasts S1x128x4096)
    (h4 : S1x128x4096.ShapeCasts S128x4096) (h' : FTy.bits .bf16 < FTy.bits .f32) (k : Fin 128) (c : Fin 4096) :
    truncf .bf16 (addf (mulf (subf (sitofp .f32 v42) (broadcast S128x4096 (Scalar.ofBits (F := Ideal) .f32 0x41000000#32)))
        (shapeCast S128x4096 (broadcastTo S1x128x4096 (shapeCast S1x1x4096 (shapeCast S1x1x4096 v39 h1) h2) h3) h4))
        (shapeCast S128x4096 (broadcastTo S1x128x4096 (shapeCast S1x1x4096 (shapeCast S1x1x4096 v41 h1) h2) h3) h4)) h' (ix2 k c)
      = wt (v42 (ix2 k c)) (v39 (ix2 (0 : Fin 1) c)) (v41 (ix2 (0 : Fin 1) c)) :=
  congrArg₂ (fun a b : EReal => (FloatOps.sitofp (F := Ideal) .f32 (v42 (ix2 k c)) - Ideal.ofBits .f32 0x41000000#32) * a + b)
    (GroupRepeat.repeat_rows_apply (g := 1) (r := 128) (n := 4096) (m := 128) rfl (by norm_num) v39 h1 h2 h3 h4 k c (0 : Fin 1)
      (by show 0 = k.val / 128; have := k.isLt; omega))
    (GroupRepeat.repeat_rows_apply (g := 1) (r := 128) (n := 4096) (m := 128) rfl (by norm_num) v41 h1 h2 h3 h4 k c (0 : Fin 1)
      (by show 0 = k.val / 128; have := k.isLt; omega))

/-- What the body stores: at `(p, c)`, what the output block held there plus the sum over the tile's 128 hidden
    features of the gated activation of token row `p` times the dequantised output weight at column `c`. -/
theorem pay1_apply (v19 v36 : FVec Ideal S4096x128 .bf16) (v39 v41 : Vec Ideal S1x4096 .f32)
    (v42 : Vec Ideal S128x4096 .i32) (v57 v65 : Vec Ideal S512x4096 .f32) (p : Fin 512) (c : Fin 4096) :
    k0_pay1 (F := Ideal) v19 v36 v39 v41 v42 v57 v65 (ix2 p c)
      = v65 (ix2 p c) + ∑ k : Fin 128,
          act (∑ d : Fin 4096, v57 (ix2 p d) * v19 (ix2 d k)) (∑ d : Fin 4096, v57 (ix2 p d) * v36 (ix2 d k))
            * wt (v42 (ix2 k c)) (v39 (ix2 (0 : Fin 1) c)) (v41 (ix2 (0 : Fin 1) c)) := by
  unfold k0_pay1
  refine congrArg₂ (fun a b : EReal => a + b) (congrFun (shapeCast_self v65 _) _) ?_
  refine (mmOut_apply _ _ p c).trans (Finset.sum_congr rfl fun k _ => ?_)
  refine congrArg₂ (fun a b : EReal => a * b) ?_ (outTile_apply v39 v41 v42 _ _ _ _ _ k c)
  exact congrArg₂ act (projTile_apply v57 v19 _ _ p k) (projTile_apply v57 v36 _ _ p k)

end Cert.KernelIdeal.Pay

end
-- ==== Proof.BlockSum.lean ====
/-
  Sums taken block by block.

  A sum over `N = n · b` consecutive positions is the sum, over the `n` blocks of `b` consecutive positions, of each
  block's sum; and a value accumulated from zero by adding one block's sum after another is the sum over the blocks
  added so far.  Both hold in any commutative additive monoid (the extended reals with their addition are one), since
  only the order and grouping of the terms change.
-/
import Mathlib.Algebra.BigOperators.Fin
import Mathlib.Logic.Equiv.Fin.Basic

open scoped BigOperators

namespace Cert.BlockSum

variable {M : Type*} [AddCommMonoid M]

/-- Position `k` of block `i` lies below `n · b`. -/
theorem pos_lt {n b N : ℕ} (h : N = n * b) (i : Fin n) (k : Fin b) : i.val * b + k.val < N := by
  subst h
  calc i.val * b + k.val < i.val * b + b := Nat.add_lt_add_left k.isLt _
    _ = (i.val + 1) * b := (Nat.succ_mul _ _).symm
    _ ≤ n * b := Nat.mul_le_mul_right _ i.isLt

/-- A sum over `n · b` positions, taken block by block. -/
theorem sum_blocks {n b N : ℕ} (h : N = n * b) (f : Fin N → M) :
    ∑ j : Fin N, f j = ∑ i : Fin n, ∑ k : Fin b, f ⟨i.val * b + k.val, pos_lt h i k⟩ := by
  subst h
  rw [← Equiv.sum_comp finProdFinEquiv f, Fintype.sum_prod_type]
  refine Finset.sum_congr rfl fun i _ => Finset.sum_congr rfl fun k _ => congrArg f (Fin.ext ?_)
  show k.val + b * i.val = i.val * b + k.val
  rw [Nat.mul_comm, Nat.add_comm]

/-- The same, with the blocks numbered by naturals below `n` and positions reduced modulo `N` (which changes no
    position that occurs). -/
theorem sum_range_blocks {n b N : ℕ} (h : N = n * b) (hN : 0 < N) (f : Fin N → M) :
    ∑ j : Fin N, f j
      = ∑ i ∈ Finset.range n, ∑ k : Fin b, f ⟨(i * b + k.val) % N, Nat.mod_lt _ hN⟩ := by
  rw [sum_blocks h f, Finset.sum_range (fun i => ∑ k : Fin b, f ⟨(i * b + k.val) % N, Nat.mod_lt _ hN⟩)]
  refine Finset.sum_congr rfl fun i _ => Finset.sum_congr rfl fun k _ => congrArg f (Fin.ext ?_)
  exact (Nat.mod_eq_of_lt (pos_lt h i k)).symm

/-- A value accumulated block after block: it starts at `0 + B 0` and each later step adds the next block's term. -/
def acc (B : ℕ → M) : ℕ → M
  | 0 => 0 + B 0
  | n + 1 => acc B n + B (n + 1)

/-- After step `n` the accumulated value is the sum of the terms of blocks `0, …, n`. -/
theorem acc_eq_sum (B : ℕ → M) : ∀ n : ℕ, acc B n = ∑ i ∈ Finset.range (n + 1), B i
  | 0 => by simp [acc]
  | n + 1 => by rw [acc, acc_eq_sum B n, Finset.sum_range_succ _ (n + 1)]

end Cert.BlockSum
-- ==== Proof.Blocks.lean ====
/-
  The grid and the windows' blocks.

  The grid walks the 16 blocks of 512 token rows and, inside each, the 86 tiles of 128 hidden features, in that order:
  point `t` is tile `t % 86` of row block `t / 86`.  At point `t` the token window shows rows
  `512 · (t / 86) + a`, the projection weights' windows show columns `128 · (t % 86) + b` (of the stored integers, of
  the scales and of the zero points), the output weight's window shows rows `128 · (t % 86) + a`, and the windows of the
  output weight's scales and zero points show those arrays whole.
-/
import proofs.«166478_j48137993453617_1_alg».proof.Proof.Pieces
import proofs.«166478_j48137993453617_1_alg».proof.Proof.Payload
import proofs.«166478_j48137993453617_1_alg».proof.Proof.BlockSum
import proofs.«166478_j48137993453617_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Spec Cert.KernelIdeal.Pieces Cert.KernelIdeal.Pay
open Idealize.ShloMosaic.Pipeline (Dat)

variable (m : (ℓ : Loc nD τ sig) → Buf (Elt Ideal) ℓ) (ρ : Dev nD → PrngReg)

/-! ## The arrays as the region finds them -/

abbrev X (c : Dev nD) : Mat 8192 4096 EReal := V m c main_v0
abbrev Q1 (c : Dev nD) : Mat 4096 11008 (BitVec 32) := V m c main_arg1
abbrev S2 (c : Dev nD) : Mat 32 11008 EReal := V m c main_arg2
abbrev Z3 (c : Dev nD) : Mat 32 11008 EReal := V m c main_arg3
abbrev Q4 (c : Dev nD) : Mat 4096 11008 (BitVec 32) := V m c main_arg4
abbrev S5 (c : Dev nD) : Mat 32 11008 EReal := V m c main_arg5
abbrev Z6 (c : Dev nD) : Mat 32 11008 EReal := V m c main_arg6
abbrev Q7 (c : Dev nD) : Mat 11008 4096 (BitVec 32) := V m c main_arg7
abbrev S8 (c : Dev nD) : Mat 86 4096 EReal := V m c main_arg8
abbrev Z9 (c : Dev nD) : Mat 86 4096 EReal := V m c main_arg9

/-! ## The grid: point `t` is tile `t % 86` of row block `t / 86` -/

theorem coords_facts : ∀ t : Fin cfg0.N, (grid0.coords t 0).val = t.val / 86 ∧ (grid0.coords t 1).val = t.val % 86 :=
  (by decide +kernel : ∀ t : Fin grid0.N, _)

/-- The windows' block indices at every point. -/
theorem idx_facts : ∀ t : Fin cfg0.N,
    win0_0.index t (0 : Fin 2) = t.val / 86 ∧ win0_0.index t (1 : Fin 2) = 0
    ∧ win0_1.index t (0 : Fin 2) = 0 ∧ win0_1.index t (1 : Fin 2) = t.val % 86
    ∧ win0_2.index t (0 : Fin 2) = 0 ∧ win0_2.index t (1 : Fin 2) = t.val % 86
    ∧ win0_3.index t (0 : Fin 2) = 0 ∧ win0_3.index t (1 : Fin 2) = t.val % 86
    ∧ win0_4.index t (0 : Fin 2) = 0 ∧ win0_4.index t (1 : Fin 2) = t.val % 86
    ∧ win0_5.index t (0 : Fin 2) = 0 ∧ win0_5.index t (1 : Fin 2) = t.val % 86
    ∧ win0_6.index t (0 : Fin 2) = 0 ∧ win0_6.index t (1 : Fin 2) = t.val % 86
    ∧ win0_7.index t (0 : Fin 2) = t.val % 86 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val / 86 ∧ win0_10.index t (1 : Fin 2) = 0 :=
  (by decide +kernel : ∀ t : Fin grid0.N, _)

/-! ## Each window's block, read at an index -/

/-- Window 0's block at point `t`, read at `(a, b)`. -/
theorem blk0_apply (c : Dev nD) (t : Fin cfg0.N) (a : Fin 512) (b : Fin 4096) (R : Fin 8192) (hR : R.val = t.val / 86 * 512 + a.val)  :
    (iblk m c 0 t : Vec Ideal S512x4096 .f32) (ix2 a b) = X m c (ix2 R b) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_v0 _ = V m c main_v0 _
  refine congrArg (V m c main_v0) (funext fun ax => Fin.ext ?_)
  match ax with
  | ⟨0, _⟩ => show win0_0.index t (0 : Fin 2) * 512 + 1 * a.val = R.val; omega
  | ⟨1, _⟩ => show win0_0.index t (1 : Fin 2) * 4096 + 1 * b.val = b.val; omega

/-- Window 1's block at point `t`, read at `(a, b)`. -/
theorem blk1_apply (c : Dev nD) (t : Fin cfg0.N) (a : Fin 4096) (b : Fin 128)  (J : Fin 11008) (hJ : J.val = t.val % 86 * 128 + b.val) :
    (iblk m c 1 t : Vec Ideal S4096x128 .i32) (ix2 a b) = Q1 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg1 _ = V m c main_arg1 _
  refine congrArg (V m c main_arg1) (funext fun ax => Fin.ext ?_)
  match ax with
  | ⟨0, _⟩ => show win0_1.index t (0 : Fin 2) * 4096 + 1 * a.val = a.val; omega
  | ⟨1, _⟩ => show win0_1.index t (1 : Fin 2) * 128 + 1 * b.val = J.val; omega

/-- Window 2's block at point `t`, read at `(a, b)`. -/
theorem blk2_apply (c : Dev nD) (t : Fin cfg0.N) (a : Fin 32) (b : Fin 128)  (J : Fin 11008) (hJ : J.val = t.val % 86 * 128 + b.val) :
    (iblk m c 2 t : Vec Ideal S32x128 .f32) (ix2 a b) = S2 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg2 _ = V m c main_arg2 _
  refine congrArg (V m c main_arg2) (funext fun ax => Fin.ext ?_)
  match ax with
  | ⟨0, _⟩ => show win0_2.index t (0 : Fin 2) * 32 + 1 * a.val = a.val; omega
  | ⟨1, _⟩ => show win0_2.index t (1 : Fin 2) * 128 + 1 * b.val = J.val; omega

/-- Window 3's block at point `t`, read at `(a, b)`. -/
theorem blk3_apply (c : Dev nD) (t : Fin cfg0.N) (a : Fin 32) (b : Fin 128)  (J : Fin 11008) (hJ : J.val = t.val % 86 * 128 + b.val) :
    (iblk m c 3 t : Vec Ideal S32x128 .f32) (ix2 a b) = Z3 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg3 _ = V m c main_arg3 _
  refine congrArg (V m c main_arg3) (funext fun ax => Fin.ext ?_)
  match ax with
  | ⟨0, _⟩ => show win0_3.index t (0 : Fin 2) * 32 + 1 * a.val = a.val; omega
  | ⟨1, _⟩ => show win0_3.index t (1 : Fin 2) * 128 + 1 * b.val = J.val; omega

/-- Window 4's block at point `t`, read at `(a, b)`. -/
theorem blk4_apply (c : Dev nD) (t : Fin cfg0.N) (a : Fin 4096) (b : Fin 128)  (J : Fin 11008) (hJ : J.val = t.val % 86 * 128 + b.val) :
    (iblk m c 4 t : Vec Ideal S4096x128 .i32) (ix2 a b) = Q4 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg4 _ = V m c main_arg4 _
  refine congrArg (V m c main_arg4) (funext fun ax => Fin.ext ?_)
  match ax with
  | ⟨0, _⟩ => show win0_4.index t (0 : Fin 2) * 4096 + 1 * a.val = a.val; omega
  | ⟨1, _⟩ => show win0_4.index t (1 : Fin 2) * 128 + 1 * b.val = J.val; omega

/-- Window 5's block at point `t`, read at `(a, b)`. -/
theorem blk5_apply (c : Dev nD) (t : Fin cfg0.N) (a : Fin 32) (b : Fin 128)  (J : Fin 11008) (hJ : J.val = t.val % 86 * 128 + b.val) :
    (iblk m c 5 t : Vec Ideal S32x128 .f32) (ix2 a b) = S5 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg5 _ = V m c main_arg5 _
  refine congrArg (V m c main_arg5) (funext fun ax => Fin.ext ?_)
  match ax with
  | ⟨0, _⟩ => show win0_5.index t (0 : Fin 2) * 32 + 1 * a.val = a.val; omega
  | ⟨1, _⟩ => show win0_5.index t (1 : Fin 2) * 128 + 1 * b.val = J.val; omega

/-- Window 6's block at point `t`, read at `(a, b)`. -/
theorem blk6_apply (c : Dev nD) (t : Fin cfg0.N) (a : Fin 32) (b : Fin 128)  (J : Fin 11008) (hJ : J.val = t.val % 86 * 128 + b.val) :
    (iblk m c 6 t : Vec Ideal S32x128 .f32) (ix2 a b) = Z6 m c (ix2 a J) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg6 _ = V m c main_arg6 _
  refine congrArg (V m c main_arg6) (funext fun ax => Fin.ext ?_)
  match ax with
  | ⟨0, _⟩ => show win0_6.index t (0 : Fin 2) * 32 + 1 * a.val = a.val; omega
  | ⟨1, _⟩ => show win0_6.index t (1 : Fin 2) * 128 + 1 * b.val = J.val; omega

/-- Window 7's block at point `t`, read at `(a, b)`. -/
theorem blk7_apply (c : Dev nD) (t : Fin cfg0.N) (a : Fin 128) (b : Fin 4096) (R : Fin 11008) (hR : R.val = t.val % 86 * 128 + a.val)  :
    (iblk m c 7 t : Vec Ideal S128x4096 .i32) (ix2 a b) = Q7 m c (ix2 R b) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg7 _ = V m c main_arg7 _
  refine congrArg (V m c main_arg7) (funext fun ax => Fin.ext ?_)
  match ax with
  | ⟨0, _⟩ => show win0_7.index t (0 : Fin 2) * 128 + 1 * a.val = R.val; omega
  | ⟨1, _⟩ => show win0_7.index t (1 : Fin 2) * 4096 + 1 * b.val = b.val; omega

/-- Window 8's block at point `t`, read at `(a, b)`. -/
theorem blk8_apply (c : Dev nD) (t : Fin cfg0.N) (a : Fin 86) (b : Fin 4096)   :
    (iblk m c 8 t : Vec Ideal S86x4096 .f32) (ix2 a b) = S8 m c (ix2 a b) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg8 _ = V m c main_arg8 _
  refine congrArg (V m c main_arg8) (funext fun ax => Fin.ext ?_)
  match ax with
  | ⟨0, _⟩ => show win0_8.index t (0 : Fin 2) * 86 + 1 * a.val = a.val; omega
  | ⟨1, _⟩ => show win0_8.index t (1 : Fin 2) * 4096 + 1 * b.val = b.val; omega

/-- Window 9's block at point `t`, read at `(a, b)`. -/
theorem blk9_apply (c : Dev nD) (t : Fin cfg0.N) (a : Fin 86) (b : Fin 4096)   :
    (iblk m c 9 t : Vec Ideal S86x4096 .f32) (ix2 a b) = Z9 m c (ix2 a b) := by
  obtain ⟨e0r, e0c, e1r, e1c, e2r, e2c, e3r, e3c, e4r, e4c, e5r, e5c, e6r, e6c, e7r, e7c, e8r, e8c, e9r, e9c, e10r, e10c⟩ := idx_facts t
  unfold iblk
  rw [View.read_apply]
  show V m c main_arg9 _ = V m c main_arg9 _
  refine congrArg (V m c main_arg9) (funext fun ax => Fin.ext ?_)
  match ax with
  | ⟨0, _⟩ => show win0_9.index t (0 : Fin 2) * 86 + 1 * a.val = a.val; omega
  | ⟨1, _⟩ => show win0_9.index t (1 : Fin 2) * 4096 + 1 * b.val = b.val; omega

end Cert.KernelIdeal.Val

end
-- ==== Proof.Accum.lean ====
/-
  The output block, tile after tile.

  At point `t` (tile `i = t % 86` of row block `t / 86`) the body adds, at entry `(p, c)` of the block, the sum over
  the tile's 128 hidden features `j = 128 · i + k` of the gated activation of token row `R = 512 · (t / 86) + p` at `j`
  times the output weight at `(j, c)`: the tile's share of the specification's sum for entry `(R, c)`.  The block starts
  from zero at tile 0, so after tile `i` it holds the accumulated shares of tiles `0, …, i`.
-/
import proofs.«166478_j48137993453617_1_alg».proof.Proof.Blocks

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Spec Cert.KernelIdeal.Pieces Cert.KernelIdeal.Pay
open Idealize.ShloMosaic.Pipeline (Dat)

variable (m : (ℓ : Loc nD τ sig) → Buf (Elt Ideal) ℓ) (ρ : Dev nD → PrngReg)

/-- The row of an 86-row array the body loads at point `t` is row `t % 86`. -/
theorem rowAt_apply (t : Fin cfg0.N) (x : Vec Ideal S86x4096 .f32) (cc : Fin 4096) (g : Fin 86) (hg : g.val = t.val % 86) :
    rowAt (grid0.coords t) x (ix2 (0 : Fin 1) cc) = x (ix2 g cc) := by
  obtain ⟨-, e1⟩ := coords_facts t
  have h0 : k0_off1 (grid0.coords t) 0 = (grid0.coords t 1).val := congrFun (k0_off1_eq (grid0.coords t)) 0
  have h1 : k0_off1 (grid0.coords t) 1 = 0 := congrFun (k0_off1_eq (grid0.coords t)) 1
  unfold rowAt
  show x ((Rect.unit (s := S86x4096) (k0_off1 (grid0.coords t)) S1x4096.size (k0_off1_inb (grid0.coords t))).emb (ix2 (0 : Fin 1) cc)) = _
  refine congrArg x (funext fun ax => Fin.ext ?_)
  match ax with
  | ⟨0, _⟩ => show k0_off1 (grid0.coords t) 0 + 1 * 0 = g.val; omega
  | ⟨1, _⟩ => show k0_off1 (grid0.coords t) 1 + 1 * cc.val = cc.val; omega

/-- Hidden feature `k` of the tile at point `t` is hidden feature `128 · (t % 86) + k`. -/
abbrev featOf (i : ℕ) (k : Fin 128) : Fin 11008 := ⟨(i * 128 + k.val) % 11008, Nat.mod_lt _ (by norm_num)⟩

/-- Tile `i`'s share of the specification's sum for entry `(R, c)`. -/
def tileTerm (c : Dev nD) (R : Fin 8192) (cc : Fin 4096) (i : ℕ) : EReal :=
  ∑ k : Fin 128, term (X m c) (Q1 m c) (S2 m c) (Z3 m c) (Q4 m c) (S5 m c) (Z6 m c) (Q7 m c) (S8 m c) (Z9 m c) R cc (featOf i k)

/-- A projection of token rows onto a tile's hidden feature: if the rows `x0` at `p` are row `R` of the token matrix and
    the tile's column `k` is column `J` of the dequantised weight, the sum over the features is the specification's
    projection of row `R` onto feature `J`. -/
theorem proj_of_blocks (Xm : Mat 8192 4096 EReal) (Q : Mat 4096 11008 (BitVec 32)) (S Z : Mat 32 11008 EReal)
    (x0 : Vec Ideal S512x4096 .f32) (wtile : FVec Ideal S4096x128 .bf16) (p : Fin 512) (k : Fin 128) (R : Fin 8192)
    (J : Fin 11008) (hx : ∀ d : Fin 4096, x0 (ix2 p d) = Xm (ix2 R d))
    (hw : ∀ d : Fin 4096, wtile (ix2 d k) = wIn Q S Z d J) :
    (∑ d : Fin 4096, x0 (ix2 p d) * wtile (ix2 d k)) = proj Xm Q S Z R J := by
  unfold proj
  exact Finset.sum_congr rfl fun d _ => congrArg₂ (fun a b : EReal => a * b) (hx d) (hw d)

/-- The first projection's dequantised tile at point `t`: column `k` is column `J = 128 · (t % 86) + k` of the weight. -/
theorem tileGate (c : Dev nD) (t : Fin cfg0.N) (k : Fin 128) (J : Fin 11008) (hJ : J.val = t.val % 86 * 128 + k.val)
    (d : Fin 4096) :
    k0_pay3 (F := Ideal) (iblk m c 1 t) (iblk m c 2 t) (iblk m c 3 t) (ix2 d k) = wIn (Q1 m c) (S2 m c) (Z3 m c) d J := by
  unfold wIn
  refine (pay3_apply (iblk m c 1 t) (iblk m c 2 t) (iblk m c 3 t) d k).trans ?_
  exact congr (congrArg₂ wt (blk1_apply m c t d k J hJ) (blk2_apply m c t (grp32 d) k J hJ)) (blk3_apply m c t (grp32 d) k J hJ)

/-- The second projection's tile, likewise. -/
theorem tileUp (c : Dev nD) (t : Fin cfg0.N) (k : Fin 128) (J : Fin 11008) (hJ : J.val = t.val % 86 * 128 + k.val)
    (d : Fin 4096) :
    k0_pay4 (F := Ideal) (iblk m c 4 t) (iblk m c 5 t) (iblk m c 6 t) (ix2 d k) = wIn (Q4 m c) (S5 m c) (Z6 m c) d J := by
  unfold wIn
  refine (pay4_apply (iblk m c 4 t) (iblk m c 5 t) (iblk m c 6 t) d k).trans ?_
  exact congr (congrArg₂ wt (blk4_apply m c t d k J hJ) (blk5_apply m c t (grp32 d) k J hJ)) (blk6_apply m c t (grp32 d) k J hJ)

/-- ONE POINT: over any previous contents `prev` of the block, the stored payload at `(p, c)` is `prev` there plus the
    tile's share for entry `(R, c)`. -/
theorem point_apply (c : Dev nD) (t : Fin cfg0.N) (prev : Vec Ideal S512x4096 .f32) (p : Fin 512) (cc : Fin 4096)
    (R : Fin 8192) (hR : R.val = t.val / 86 * 512 + p.val) :
    k0_pay1 (F := Ideal) (k0_pay3 (iblk m c 1 t) (iblk m c 2 t) (iblk m c 3 t)) (k0_pay4 (iblk m c 4 t) (iblk m c 5 t) (iblk m c 6 t))
        (rowAt (grid0.coords t) (iblk m c 8 t)) (rowAt (grid0.coords t) (iblk m c 9 t)) (iblk m c 7 t) (iblk m c 0 t) prev (ix2 p cc)
      = prev (ix2 p cc) + tileTerm m c R cc (t.val % 86) := by
  refine (pay1_apply (k0_pay3 (iblk m c 1 t) (iblk m c 2 t) (iblk m c 3 t)) (k0_pay4 (iblk m c 4 t) (iblk m c 5 t) (iblk m c 6 t))
    (rowAt (grid0.coords t) (iblk m c 8 t)) (rowAt (grid0.coords t) (iblk m c 9 t)) (iblk m c 7 t) (iblk m c 0 t) prev p cc).trans ?_
  refine congrArg (fun s : EReal => prev (ix2 p cc) + s) (Finset.sum_congr rfl fun k _ => ?_)
  have hk := k.isLt
  have hJ : (featOf (t.val % 86) k).val = t.val % 86 * 128 + k.val := by
    show (t.val % 86 * 128 + k.val) % 11008 = _
    omega
  have hg : (grp86 (featOf (t.val % 86) k)).val = t.val % 86 := by
    show (t.val % 86 * 128 + k.val) % 11008 / 128 = _
    omega
  unfold term Cert.Spec.hidden wOut
  refine congrArg₂ (fun a b : EReal => a * b)
    (congrArg₂ act
      (proj_of_blocks (X m c) (Q1 m c) (S2 m c) (Z3 m c) (iblk m c 0 t) (k0_pay3 (iblk m c 1 t) (iblk m c 2 t) (iblk m c 3 t)) p k R
        (featOf (t.val % 86) k) (fun d => blk0_apply m c t p d R hR) (fun d => tileGate m c t k _ hJ d))
      (proj_of_blocks (X m c) (Q4 m c) (S5 m c) (Z6 m c) (iblk m c 0 t) (k0_pay4 (iblk m c 4 t) (iblk m c 5 t) (iblk m c 6 t)) p k R
        (featOf (t.val % 86) k) (fun d => blk0_apply m c t p d R hR) (fun d => tileUp m c t k _ hJ d))) ?_
  refine congr (congrArg₂ wt (blk7_apply m c t k cc _ hJ) ?_) ?_
  · exact (rowAt_apply t (iblk m c 8 t) cc _ hg).trans (blk8_apply m c t _ cc)
  · exact (rowAt_apply t (iblk m c 9 t) cc _ hg).trans (blk9_apply m c t _ cc)

/-- The zero block reads zero. -/
theorem pay2_apply (j : S512x4096.Idx) : k0_pay2 (F := Ideal) j = 0 := Ideal.ofBits_zero_f32

/-- At the first tile of a row block the block ends at zero plus the tile's share. -/
theorem stepA (c : Dev nD) (t : Fin cfg0.N) (h0 : t.val % 86 = 0) (p : Fin 512) (cc : Fin 4096)
    (R : Fin 8192) (hR : R.val = t.val / 86 * 512 + p.val) :
    outsAt0 m c t.val t.isLt (ix2 p cc) = 0 + tileTerm m c R cc 0 := by
  have e := congrFun ((outsAt0_A m c t h0).trans
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t))) (ix2 p cc)
  have hp := point_apply m c t (k0_pay2 (F := Ideal)) p cc R hR
  rw [pay2_apply, h0] at hp
  exact e.trans hp

/-- At a later tile it ends at what it held after the tile before plus the tile's share. -/
theorem stepB (c : Dev nD) (t : Fin cfg0.N) (h0 : ¬t.val % 86 = 0) (p : Fin 512) (cc : Fin 4096)
    (R : Fin 8192) (hR : R.val = t.val / 86 * 512 + p.val) :
    outsAt0 m c t.val t.isLt (ix2 p cc)
      = outsAt0 m c (t.val - 1) (Nat.lt_of_le_of_lt (Nat.sub_le _ _) t.isLt) (ix2 p cc) + tileTerm m c R cc (t.val % 86) := by
  have e := congrFun ((outsAt0_B m c t h0).trans
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt)))) (ix2 p cc)
  exact e.trans (point_apply m c t _ p cc R hR)

/-- THE ACCUMULATION: after point `n` the block holds, at `(p, c)`, the shares of tiles `0, …, n % 86` for entry
    `(R, c)`, accumulated from zero in tile order. -/
theorem outsAt_apply (c : Dev nD) : ∀ (n : ℕ) (hn : n < cfg0.N) (p : Fin 512) (cc : Fin 4096) (R : Fin 8192)
    (hR : R.val = n / 86 * 512 + p.val), outsAt0 m c n hn (ix2 p cc) = BlockSum.acc (tileTerm m c R cc) (n % 86)
  | 0, hn, p, cc, R, hR => stepA m c ⟨0, hn⟩ rfl p cc R hR
  | n + 1, hn, p, cc, R, hR => by
    by_cases h0 : (n + 1) % 86 = 0
    · rw [h0]
      exact stepA m c ⟨n + 1, hn⟩ h0 p cc R hR
    · have hq : (n + 1) / 86 = n / 86 := by omega
      have hr : (n + 1) % 86 = n % 86 + 1 := by omega
      rw [hr]
      refine (stepB m c ⟨n + 1, hn⟩ h0 p cc R hR).trans ?_
      show outsAt0 m c n _ (ix2 p cc) + tileTerm m c R cc ((n + 1) % 86) = BlockSum.acc (tileTerm m c R cc) (n % 86) + tileTerm m c R cc (n % 86 + 1)
      rw [outsAt_apply c n _ p cc R (by omega), hr]

end Cert.KernelIdeal.Val

end
-- ==== Proof.KernelRun.lean ====
/-
  The kernel's result.

  A row block is written back once, after its last tile, when it holds the shares of all 86 tiles: the sum over all
  11008 hidden features, which is the specification's block on the token matrix.  The 16 row blocks tile the output
  array, so the array ends at that function everywhere.  Around the region the program only re-lays data: before it the
  4 × 2048 tokens are laid out as the 8192 rows of the token matrix (token `(b, s)` is row `2048 · b + s`), after it
  the 8192 result rows are laid out as 4 × 2048 again.  So the result is the specification's function of the arguments.
-/
import proofs.«166478_j48137993453617_1_alg».proof.Proof.Accum
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Spec Cert.KernelIdeal.Pieces Cert.KernelIdeal.Pay
open Idealize.ShloMosaic.Pipeline (Dat)

variable (m : (ℓ : Loc nD τ sig) → Buf (Elt Ideal) ℓ) (ρ : Dev nD → PrngReg)

/-- The specification's block on the token matrix as the region finds it: what the output array ends holding. -/
def outMat (c : Dev nD) : Mat 8192 4096 EReal := fun I => mlp (X m c) (Q1 m c) (S2 m c) (Z3 m c) (Q4 m c) (S5 m c) (Z6 m c) (Q7 m c) (S8 m c) (Z9 m c) (I 0) (I 1)

/-- The shares of the 86 tiles add up to the specification's sum over the 11008 hidden features. -/
theorem tiles_sum (c : Dev nD) (R : Fin 8192) (cc : Fin 4096) :
    ∑ i ∈ Finset.range 86, tileTerm m c R cc i = mlp (X m c) (Q1 m c) (S2 m c) (Z3 m c) (Q4 m c) (S5 m c) (Z6 m c) (Q7 m c) (S8 m c) (Z9 m c) R cc := by
  unfold mlp tileTerm
  exact (BlockSum.sum_range_blocks (n := 86) (b := 128) (N := 11008) rfl (by norm_num)
    (fun j => term (X m c) (Q1 m c) (S2 m c) (Z3 m c) (Q4 m c) (S5 m c) (Z6 m c) (Q7 m c) (S8 m c) (Z9 m c) R cc j)).symm

/-- WHAT A WRITE-BACK WRITES: at a point that writes the block back (the last tile of its row block) the block is the
    block of `outMat`. -/
theorem flushed_eq (c : Dev nD) (t : Fin cfg0.N) (hf : (cfg0.win 10).flush t = true) :
    (dats m 0 c).flushed 10 t = ((cfg0.win 10).blk t).view.read (Elt Ideal) (outMat m c) := by
  have hN : t.val < 1376 := lt_of_lt_of_eq t.isLt N_0
  have h85 : t.val % 86 = 85 := (flush0_10 t).mp hf
  obtain ⟨e0r, e0c, e1r, e1c, e2r, e2c, e3r, e3c, e4r, e4c, e5r, e5c, e6r, e6c, e7r, e7c, e8r, e8c, e9r, e9c, e10r, e10c⟩ := idx_facts t
  show (cfg0.win 10).cut (grid0.coords t) ((dats m 0 c).after 10 t) = _
  rw [after0_10]
  funext y
  obtain ⟨p, cc, rfl⟩ : ∃ (p : Fin 512) (cc : Fin 4096), y = ix2 p cc := ⟨y 0, y 1, eq_ix2 y⟩
  have hp : p.val < 512 := p.isLt
  refine (outsAt_apply m c t.val t.isLt p cc ⟨t.val / 86 * 512 + p.val, by omega⟩ rfl).trans ?_
  refine ((congrArg (BlockSum.acc (tileTerm m c ⟨t.val / 86 * 512 + p.val, by omega⟩ cc)) h85).trans
    ((BlockSum.acc_eq_sum _ 85).trans (tiles_sum m c ⟨t.val / 86 * 512 + p.val, by omega⟩ cc))).trans ?_
  rw [View.read_apply]
  unfold outMat
  refine congrArg₂ (mlp (X m c) (Q1 m c) (S2 m c) (Z3 m c) (Q4 m c) (S5 m c) (Z6 m c) (Q7 m c) (S8 m c) (Z9 m c)) (Fin.ext ?_) (Fin.ext ?_)
  · show t.val / 86 * 512 + p.val = win0_10.index t (0 : Fin 2) * 512 + 1 * p.val
    omega
  · show cc.val = win0_10.index t (1 : Fin 2) * 4096 + 1 * cc.val
    omega

/-- The 16 row blocks tile the output array: row `r` is in the block written back at the last tile of row block
    `r / 512`. -/
theorem cover (c : Dev nD) (I : ((cfg0.win 10).arr.view.loc (c.tc : Thread nD τ)).2.ty.Idx) :
    ∃ t : Fin cfg0.N, (cfg0.win 10).flush t = true ∧ I ∈ ((cfg0.win 10).blk t).view.set := by
  have h0 : (I 0).val < 8192 := (I 0).isLt
  have h1 : (I 1).val < 4096 := (I 1).isLt
  have hN : cfg0.N = 1376 := N_0
  have ht : (I 0).val / 512 * 86 + 85 < cfg0.N := by rw [hN]; omega
  obtain ⟨e0r, e0c, e1r, e1c, e2r, e2c, e3r, e3c, e4r, e4c, e5r, e5c, e6r, e6c, e7r, e7c, e8r, e8c, e9r, e9c, e10r, e10c⟩ := idx_facts ⟨(I 0).val / 512 * 86 + 85, ht⟩
  refine ⟨⟨(I 0).val / 512 * 86 + 85, ht⟩, (flush0_10 _).mpr (by show ((I 0).val / 512 * 86 + 85) % 86 = 85; omega), ?_⟩
  show I ∈ ((View.whole main_v1).slice (win0_10.rect ⟨(I 0).val / 512 * 86 + 85, ht⟩)).set
  rw [View.set_slice_whole, Rect.mem_set_unit]
  intro a
  have q : ((I 0).val / 512 * 86 + 85) / 86 = (I 0).val / 512 := by omega
  match a with
  | ⟨0, _⟩ =>
    show win0_10.index ⟨(I 0).val / 512 * 86 + 85, ht⟩ (0 : Fin 2) * 512 ≤ (I 0).val
      ∧ (I 0).val < win0_10.index ⟨(I 0).val / 512 * 86 + 85, ht⟩ (0 : Fin 2) * 512 + 512
    rw [e10r]; show ((I 0).val / 512 * 86 + 85) / 86 * 512 ≤ _ ∧ _ < ((I 0).val / 512 * 86 + 85) / 86 * 512 + 512
    rw [q]; omega
  | ⟨1, _⟩ =>
    show win0_10.index ⟨(I 0).val / 512 * 86 + 85, ht⟩ (1 : Fin 2) * 4096 ≤ (I 1).val
      ∧ (I 1).val < win0_10.index ⟨(I 0).val / 512 * 86 + 85, ht⟩ (1 : Fin 2) * 4096 + 4096
    rw [e10c]; omega

/-- THE OUTPUT ARRAY after the region. -/
theorem final (c : Dev nD) : (dats m 0 c).arrAt 10 cfg0.N = outMat m c :=
  (dats m 0 c).arrAt_eq_of_cover 10 (outMat m c) (flushed_eq m c) (cover c)

/-! ## Around the region -/

/-- The token matrix the region finds is the rank-3 argument's tokens laid out as rows: the cast before the region
    keeps row-major positions, and position `(r, d)` of the matrix is position `(r / 2048, r % 2048, d)` of the array. -/
theorem X_eq (c : Dev nD) : X m c = rows (m ((c : Thread nD τ).loc main_arg0)) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results
    rfl
  show V m c main_v0 = _
  rw [e]
  funext I
  obtain ⟨r, d, rfl⟩ : ∃ (r : Fin 8192) (d : Fin 4096), I = ix2 r d := ⟨I 0, I 1, eq_ix2 I⟩
  have hr := r.isLt
  unfold rows
  exact shapeCast_apply (s := S4x2048x4096) (t := S8192x4096)
    (m ((c : Thread nD τ).loc main_arg0) : S4x2048x4096.Idx → EReal) shapeCasts_S4x2048x4096_S8192x4096 (ix2 r d)
    (ix3 (⟨r.val / 2048, by omega⟩ : Fin 4) (⟨r.val % 2048, Nat.mod_lt _ (by norm_num)⟩ : Fin 2048) d) (by
      rw [Shape.rowMajor_val_three, Shape.rowMajor_val_two]
      show (r.val / 2048 * 2048 + r.val % 2048) * 4096 + d.val = r.val * 4096 + d.val
      rw [Nat.div_add_mod'])

/-- After the region the output array's 8192 rows are laid out as 4 × 2048 tokens. -/
theorem tail_eq (c : Dev nD) : Pipeline.afterTail₀ cfgs (dats m) 0 (V0 m) [hostOps1] c main_v2
    = shapeCast S4x2048x4096 (outMat m c) shapeCasts_S8192x4096_S4x2048x4096 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = outMat m c := (Pipeline.withArrays_arr spec0 launch0.win.arr_inj c _ _ 10).trans (final m c)
  funext i
  exact congrFun (congrArg (fun a : Mat 8192 4096 EReal => shapeCast S4x2048x4096 a shapeCasts_S8192x4096_S4x2048x4096) hw) i

/-- THE RESULT at a token: the cast after the region keeps row-major positions, so token `(b, s)` reads row
    `2048 · b + s` of the output array; and the arrays the region finds are the arguments (the token matrix their
    rank-3 tokens as rows). -/
theorem result_eq (c : Dev nD) :
    shapeCast S4x2048x4096 (outMat m c) shapeCasts_S8192x4096_S4x2048x4096
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨b, s, cc, rfl⟩ : ∃ (b : Fin 4) (s : Fin 2048) (cc : Fin 4096), i = ix3 b s cc := ⟨i 0, i 1, i 2, eq_ix3 i⟩
  refine (shapeCast_apply (s := S8192x4096) (t := S4x2048x4096) (outMat m c) shapeCasts_S8192x4096_S4x2048x4096
    (ix3 b s cc) (ix2 (rowOf b s) cc) (by rw [Shape.rowMajor_val_two, Shape.rowMajor_val_three]; rfl)).trans ?_
  have h0 : X m c = rows (m ((c.tc : Thread nD τ).loc main_arg0)) := X_eq m c
  have h1 : Q1 m c = m ((c.tc : Thread nD τ).loc main_arg1) := V_main_arg1 m c
  have h2 : S2 m c = m ((c.tc : Thread nD τ).loc main_arg2) := V_main_arg2 m c
  have h3 : Z3 m c = m ((c.tc : Thread nD τ).loc main_arg3) := V_main_arg3 m c
  have h4 : Q4 m c = m ((c.tc : Thread nD τ).loc main_arg4) := V_main_arg4 m c
  have h5 : S5 m c = m ((c.tc : Thread nD τ).loc main_arg5) := V_main_arg5 m c
  have h6 : Z6 m c = m ((c.tc : Thread nD τ).loc main_arg6) := V_main_arg6 m c
  have h7 : Q7 m c = m ((c.tc : Thread nD τ).loc main_arg7) := V_main_arg7 m c
  have h8 : S8 m c = m ((c.tc : Thread nD τ).loc main_arg8) := V_main_arg8 m c
  have h9 : Z9 m c = m ((c.tc : Thread nD τ).loc main_arg9) := V_main_arg9 m c
  unfold outMat G
  rw [h0, h1, h2, h3, h4, h5, h6, h7, h8, h9]

/-- THE KERNEL'S RUN at the ideal instance: every weakly fair execution terminates with the result at the
    specification's function of the arguments, and the arguments unchanged. -/
theorem run : θ_run defs (onTc (τ := τ) (main (F := Ideal))) ⟨m, fun _ => 0, ρ⟩ (fun r => ∀ c : Dev nD,
      r.2.mem ((c.tc : Thread nD τ).loc main_v2) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_v2 (Pipeline.mem_restRefs_of main_v2 (by decide) (by decide))).trans (tail_eq m c)).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Val

end
-- ==== Proof.RefValue.lean ====
/-
  The reference computes the specification's function.

  The reference dequantises each weight whole — every row of scales and zero points repeated for the 128 rows of its
  group, by a broadcast along a new middle axis and a cast that keeps row-major positions, so row `d` takes group
  `d / 128` —, contracts the tokens with the two projection weights over the 4096 features, gates with
  `g · (1 / (1 + e^(-g)))`, which is the logistic function's own expression, multiplies by the second projection, and
  contracts with the output weight over all 11008 hidden features.  Read at an index, stage by stage, that is the
  specification's sum; token `(b, s)` of the rank-3 argument is row `2048 · b + s` of the specification's token matrix.
-/
import proofs.«166478_j48137993453617_1_alg».proof.Proof.Gen.ReferenceIdeal.Read
import proofs.«166478_j48137993453617_1_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.Spec

/-! ## The dequantised weights -/

/-- Row `d` of a repeated 32-row array is row `d / 128`: the broadcast-and-cast read at `(d, j)`. -/
theorem rep32 (d : Fin 4096) (j : Fin 11008) : idx_main_v0 (idx_main_v1 (ix2 d j)) = ix2 (grp32 d) j := by
  have hd := d.isLt; have hj := j.isLt
  funext a
  match a with
  | ⟨0, _⟩ => exact Fin.ext (by show (d.val * 11008 + j.val) / 1409024 = d.val / 128; omega)
  | ⟨1, _⟩ => exact Fin.ext (by show (d.val * 11008 + j.val) % 11008 = j.val; omega)

/-- Row `j` of a repeated 86-row array is row `j / 128`. -/
theorem rep86 (j : Fin 11008) (c : Fin 4096) : idx_main_v18 (idx_main_v19 (ix2 j c)) = ix2 (grp86 j) c := by
  have hj := j.isLt; have hc := c.isLt
  funext a
  match a with
  | ⟨0, _⟩ => exact Fin.ext (by show (j.val * 4096 + c.val) / 524288 = j.val / 128; omega)
  | ⟨1, _⟩ => exact Fin.ext (by show (j.val * 4096 + c.val) % 4096 = c.val; omega)

/-- The first projection weight, dequantised, at `(d, j)`. -/
theorem deqGate (q : Mat 4096 11008 (BitVec 32)) (s z : Mat 32 11008 EReal) (d : Fin 4096) (j : Fin 11008) :
    val_main_v8 (F := Ideal) q s z (ix2 d j) = wIn q s z d j := by
  rw [val_main_v8_apply, val_main_v7_apply, val_main_v6_apply, val_main_v4_apply, val_main_v5_apply, val_main_cst_apply,
    val_main_v1_apply, val_main_v0_apply, val_main_v3_apply, val_main_v2_apply]
  show FloatOps.addf (F := Ideal) (φ := .f32) (FloatOps.mulf (FloatOps.subf _ _) (s (idx_main_v0 (idx_main_v1 (ix2 d j))))) (z (idx_main_v0 (idx_main_v1 (ix2 d j)))) = _
  rw [rep32]
  rfl

/-- The second projection weight, dequantised, at `(d, j)`. -/
theorem deqUp (q : Mat 4096 11008 (BitVec 32)) (s z : Mat 32 11008 EReal) (d : Fin 4096) (j : Fin 11008) :
    val_main_v17 (F := Ideal) q s z (ix2 d j) = wIn q s z d j := by
  rw [val_main_v17_apply, val_main_v16_apply, val_main_v15_apply, val_main_v13_apply, val_main_v14_apply, val_main_cst_0_apply,
    val_main_v10_apply, val_main_v9_apply, val_main_v12_apply, val_main_v11_apply]
  show FloatOps.addf (F := Ideal) (φ := .f32) (FloatOps.mulf (FloatOps.subf _ _) (s (idx_main_v0 (idx_main_v1 (ix2 d j))))) (z (idx_main_v0 (idx_main_v1 (ix2 d j)))) = _
  rw [rep32]
  rfl

/-- The output weight, dequantised, at `(j, c)`. -/
theorem deqOut (q : Mat 11008 4096 (BitVec 32)) (s z : Mat 86 4096 EReal) (j : Fin 11008) (c : Fin 4096) :
    val_main_v26 (F := Ideal) q s z (ix2 j c) = wOut q s z j c := by
  rw [val_main_v26_apply, val_main_v25_apply, val_main_v24_apply, val_main_v22_apply, val_main_v23_apply, val_main_cst_1_apply,
    val_main_v19_apply, val_main_v18_apply, val_main_v21_apply, val_main_v20_apply]
  show FloatOps.addf (F := Ideal) (φ := .f32) (FloatOps.mulf (FloatOps.subf _ _) (s (idx_main_v18 (idx_main_v19 (ix2 j c))))) (z (idx_main_v18 (idx_main_v19 (ix2 j c)))) = _
  rw [rep86]
  rfl

/-! ## The projections, the gate, the result -/

/-- The first projection of token `(b, s)` onto hidden feature `j`. -/
theorem projGate (x0 : Arr3 4 2048 4096 EReal) (q : Mat 4096 11008 (BitVec 32)) (s z : Mat 32 11008 EReal)
    (b : Fin 4) (t : Fin 2048) (j : Fin 11008) :
    val_main_v27 (F := Ideal) x0 q s z (ix3 b t j) = proj (rows x0) q s z (rowOf b t) j := by
  rw [val_main_v27_apply]
  unfold proj
  refine Finset.sum_congr rfl fun d _ => ?_
  have el : lidx_main_v27 (ix3 b t j) d = ix3 b t d := funext fun a => by
    match a with
    | ⟨0, _⟩ => rfl
    | ⟨1, _⟩ => rfl
    | ⟨2, _⟩ => rfl
  have er : ridx_main_v27 (ix3 b t j) d = ix2 d j := funext fun a => by
    match a with
    | ⟨0, _⟩ => rfl
    | ⟨1, _⟩ => rfl
  rw [el, er, deqGate, rows_rowOf]

/-- The second projection of token `(b, s)` onto hidden feature `j`. -/
theorem projUp (x0 : Arr3 4 2048 4096 EReal) (q : Mat 4096 11008 (BitVec 32)) (s z : Mat 32 11008 EReal)
    (b : Fin 4) (t : Fin 2048) (j : Fin 11008) :
    val_main_v28 (F := Ideal) x0 q s z (ix3 b t j) = proj (rows x0) q s z (rowOf b t) j := by
  rw [val_main_v28_apply]
  unfold proj
  refine Finset.sum_congr rfl fun d _ => ?_
  have el : lidx_main_v28 (ix3 b t j) d = ix3 b t d := funext fun a => by
    match a with
    | ⟨0, _⟩ => rfl
    | ⟨1, _⟩ => rfl
    | ⟨2, _⟩ => rfl
  have er : ridx_main_v28 (ix3 b t j) d = ix2 d j := funext fun a => by
    match a with
    | ⟨0, _⟩ => rfl
    | ⟨1, _⟩ => rfl
  rw [el, er, deqUp, rows_rowOf]

/-- The reference's gate `g · (1 / (1 + e^(-g)))` is `g · σ(g)`: the quotient is the logistic function's own expression,
    the two literals being the number one. -/
theorem gate_eq (g : EReal) :
    FloatOps.mulf (F := Ideal) (φ := .f32) g (FloatOps.hostDivf (FloatOps.ofBits .f32 0x3F800000#32)
      (FloatOps.addf (FloatOps.ofBits .f32 0x3F800000#32) (FloatOps.hostUnary .exp (FloatOps.hostNegf g))))
      = g * Ideal.logistic g := by
  show g * Ideal.div (Ideal.ofBits .f32 0x3F800000#32) (Ideal.ofBits .f32 0x3F800000#32 + Ideal.exp (-g)) = _
  rw [Ideal.ofBits_one_f32]
  rfl

/-- The hidden activation of token `(b, s)` at hidden feature `j`. -/
theorem hiddenRef (x0 : Arr3 4 2048 4096 EReal) (q1 : Mat 4096 11008 (BitVec 32)) (s2 z3 : Mat 32 11008 EReal)
    (q4 : Mat 4096 11008 (BitVec 32)) (s5 z6 : Mat 32 11008 EReal) (b : Fin 4) (t : Fin 2048) (j : Fin 11008) :
    val_main_v30 (F := Ideal) x0 q1 s2 z3 q4 s5 z6 (ix3 b t j)
      = Cert.Spec.hidden (rows x0) q1 s2 z3 q4 s5 z6 (rowOf b t) j := by
  rw [val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply,
    projGate, projUp]
  unfold Cert.Spec.hidden act
  exact congrArg (fun a : EReal => a * proj (rows x0) q4 s5 z6 (rowOf b t) j) (gate_eq _)

/-- THE REFERENCE'S RESULT is the specification's function of its arguments. -/
theorem result_eq (x0 : Arr3 4 2048 4096 EReal) (q1 : Mat 4096 11008 (BitVec 32)) (s2 z3 : Mat 32 11008 EReal)
    (q4 : Mat 4096 11008 (BitVec 32)) (s5 z6 : Mat 32 11008 EReal)
    (q7 : Mat 11008 4096 (BitVec 32)) (s8 z9 : Mat 86 4096 EReal) :
    val_main_v31 (F := Ideal) x0 q1 s2 z3 q4 s5 z6 q7 s8 z9 = G x0 q1 s2 z3 q4 s5 z6 q7 s8 z9 := by
  funext i
  obtain ⟨b, t, c, rfl⟩ : ∃ (b : Fin 4) (t : Fin 2048) (c : Fin 4096), i = ix3 b t c := ⟨i 0, i 1, i 2, eq_ix3 i⟩
  rw [val_main_v31_apply]
  unfold G mlp term
  refine Finset.sum_congr rfl fun j _ => ?_
  have el : lidx_main_v31 (ix3 b t c) j = ix3 b t j := funext fun a => by
    match a with
    | ⟨0, _⟩ => rfl
    | ⟨1, _⟩ => rfl
    | ⟨2, _⟩ => rfl
  have er : ridx_main_v31 (ix3 b t c) j = ix2 j c := funext fun a => by
    match a with
    | ⟨0, _⟩ => rfl
    | ⟨1, _⟩ => rfl
  rw [el, er, hiddenRef, deqOut]

end Cert.ReferenceIdeal.RefValue

end
-- ==== Proof.lean ====
/-
  The certificate of the fused group-quantised gated feed-forward kernel against its reference.

  Both programs compute, for each of the 4 × 2048 tokens, `(g · σ(g) · u) · Wd` with `g = x · Wg`, `u = x · Wu`, every
  weight entry `(q - 8) · s + z` over groups of 128 rows (Proof/Spec.lean).  The kernel walks 16 blocks of 512 token
  rows and 86 tiles of 128 hidden features, accumulating each tile's share of the last sum into the output block from
  zero (Proof/Payload.lean, Pieces.lean, Blocks.lean, Accum.lean, KernelRun.lean); the reference takes each sum whole
  (Proof/RefValue.lean).  On the extended reals a sum taken block by block is the sum (Proof/BlockSum.lean): only the
  order and grouping of the terms differ, so no finiteness of the inputs is used.  The idealization rewrote nothing;
  the three frames are the generated ones (the reference's is its generated run with the result dropped).
-/
import proofs.«166478_j48137993453617_1_alg».proof.Defs
import proofs.«166478_j48137993453617_1_alg».proof.Proof.Gen.Kernel
import proofs.«166478_j48137993453617_1_alg».proof.Proof.Gen.Kernel.Skeleton
import proofs.«166478_j48137993453617_1_alg».proof.Proof.Gen.Kernel.Launch
import proofs.«166478_j48137993453617_1_alg».proof.Proof.Gen.Kernel.Points
import proofs.«166478_j48137993453617_1_alg».proof.Proof.Gen.Kernel.Frame
import proofs.«166478_j48137993453617_1_alg».proof.Proof.Gen.KernelIdeal
import proofs.«166478_j48137993453617_1_alg».proof.Proof.Gen.KernelIdeal.Skeleton
import proofs.«166478_j48137993453617_1_alg».proof.Proof.Gen.KernelIdeal.Launch
import proofs.«166478_j48137993453617_1_alg».proof.Proof.Gen.KernelIdeal.Points
import proofs.«166478_j48137993453617_1_alg».proof.Proof.Gen.KernelIdeal.Frame
import proofs.«166478_j48137993453617_1_alg».proof.Proof.Gen.ReferenceIdeal
import proofs.«166478_j48137993453617_1_alg».proof.Proof.Gen.ReferenceIdeal.Run
import proofs.«166478_j48137993453617_1_alg».proof.Proof.Gen.ReferenceIdeal.Read
import proofs.«166478_j48137993453617_1_alg».proof.Proof.Gen.Pre_finite_inputs
import proofs.«166478_j48137993453617_1_alg».proof.Proof.KernelRun
import proofs.«166478_j48137993453617_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result ends at the specification's function of its arguments, and the reference's
    result at the same function of arguments that agree with them. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v31_eq, Cert.ReferenceIdeal.RefValue.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
